-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S768x768 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x768 : Shape := ⟨3, ![4, 8192, 768]⟩
abbrev S768x768 : Shape := ⟨2, ![768, 768]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_

variable [Facts]

def fn {F : FTy → Type} [FloatOps F] (main_arg0 : FVec F S4x8192x768 .f32) (main_arg1 : FVec F S768x768 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  main_v8
-- ==== Kernel.lean ====
abbrev S4x8192x768 : Shape := ⟨3, ![4, 8192, 768]⟩
abbrev S768x768 : Shape := ⟨2, ![768, 768]⟩
abbrev S32768x768 : Shape := ⟨2, ![32768, 768]⟩
abbrev S2048x768 : Shape := ⟨2, ![2048, 768]⟩

abbrev nBuf : Space → Nat
  | .hbm => 5
  | .vmem => 5
  | .smem => 0
  | _ => 0

abbrev bufTy : (tb : Table) → Fin (tcTables nBuf tb) → BufTy
  | .hbm, ⟨0, _⟩ => ⟨S4x8192x768, .f32⟩
  | .hbm, ⟨1, _⟩ => ⟨S768x768, .f32⟩
  | .hbm, ⟨2, _⟩ => ⟨S32768x768, .f32⟩
  | .hbm, ⟨3, _⟩ => ⟨S32768x768, .f32⟩
  | .hbm, ⟨4, _⟩ => ⟨S4x8192x768, .f32⟩
  | .local _ .vmem, ⟨0, _⟩ => ⟨S2048x768, .f32⟩
  | .local _ .vmem, ⟨1, _⟩ => ⟨S2048x768, .f32⟩
  | .local _ .vmem, ⟨2, _⟩ => ⟨S768x768, .f32⟩
  | .local _ .vmem, ⟨3, _⟩ => ⟨S2048x768, .f32⟩
  | .local _ .vmem, ⟨4, _⟩ => ⟨S2048x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x8192x768_S32768x768 : S4x8192x768.ShapeCasts S32768x768
  inb_S768x768_S768x768_0_0 : ∀ a, (![0, 0] : Fin 2 → Nat) a + S768x768.size a ≤ S768x768.size a
  h_S768x768 : 0 < S768x768.numel
  bitsLt_bf16_f32 : FTy.bits .bf16 < FTy.bits .f32
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  shapeCasts_S32768x768_S4x8192x768 : S32768x768.ShapeCasts S4x8192x768
  dot_S2048x768_S768x768_S2048x768_1_1_0_0_n_n_wf : DotDims.WF S2048x768 S768x768 S2048x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S32768x768.size a
  hwx0_0 : ∀ i : grid0.Coords, EltTy.bits .f32 = 32 ∨ (Rect.block (s := S32768x768) S2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x768.size a ≤ S32768x768.size a
  hwx0_2 : ∀ i : grid0.Coords, EltTy.bits .f32 = 32 ∨ (Rect.block (s := S32768x768) S2048x768.size (cc0_transform_2 i) (hinb0_2 i)).WholeWords (EltTy.packing .f32)

variable [Facts₀]

def dot_S2048x768_S768x768_S2048x768_1_1_0_0_n_n : DotDims S2048x768 S768x768 S2048x768 where
  lhsContracting := [1]
  rhsContracting := [1]
  lhsNonContracting := [0]
  rhsNonContracting := [0]
  lhsBatch := []
  rhsBatch := []
  wf := dot_S2048x768_S768x768_S2048x768_1_1_0_0_n_n_wf

abbrev win0_0 : Pipeline.Window sig grid0 :=
  Pipeline.Window.ofSpec (Memref.whole main_v0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x768 : Shape := ⟨3, ![4, 8192, 768]⟩
abbrev S768x768 : Shape := ⟨2, ![768, 768]⟩

abbrev nBuf : Space → Nat
  | .hbm => 4
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S768x768, .f32⟩
  | .hbm, ⟨2, _⟩ => ⟨S768x768, .f32⟩
  | .hbm, ⟨3, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  dot_S4x8192x768_S768x768_S4x8192x768_2_1_01_0_n_n_wf : DotDims.WF S4x8192x768 S768x768 S4x8192x768 [2] [1] [0, 1] [0] [] []

variable [Facts₀]

def dot_S4x8192x768_S768x768_S4x8192x768_2_1_01_0_n_n : DotDims S4x8192x768 S768x768 S4x8192x768 where
  lhsContracting := [2]
  rhsContracting := [1]
  lhsNonContracting := [0, 1]
  rhsNonContracting := [0]
  lhsBatch := []
  rhsBatch := []
  wf := dot_S4x8192x768_S768x768_S4x8192x768_2_1_01_0_n_n_wf

class Facts : Prop extends Facts₀ where

variable [Facts]
-- ==== Proof.LibSignLayer.lean ====
/-
  A linear layer whose weights are binarised by their sign.

  For a table of rows `x` (extent M × K) and a weight table `w` (extent N × K), the layer's entry at row `r` and
  output feature `o` is the sum over the K input features of `x(r,k) · sign(w(o,k))`: every weight counts as −1, 0
  or +1. Everything here is over the extended reals, where the sum and the product are commutative and associative
  without any finiteness assumption, so no entry is assumed finite.

  It imports no program and is generic in the extents M, N, K (and B, S for the batch form).

  Two things are proved. First, the sign spelt with two order comparisons — where |w| > 0 take −1 below zero and +1
  otherwise, elsewhere (only at w = 0) take w itself — is the sign function, at −∞ and +∞ included. Second, the three
  binary words the comparison form uses denote 0, +1 and −1.
-/
import Idealize.ShloMosaic.PureOps.Ideal
import Idealize.ShloMosaic.PureOps.Ideal.Laws
import Idealize.ShloMosaic.Lib.ValueIdx

noncomputable section

open scoped BigOperators

namespace Cert.BinaryLinear

open Idealize.ShloMosaic Idealize.ShloMosaic.ValueIdx

/-! ## The three words -/

/-- The all-zero word is the number 0. -/
theorem word_zero : Ideal.ofBits .f32 0x00000000#32 = 0 := Ideal.ofBits_zero_f32

/-- Exponent field 127 and an empty significand: the number 1. -/
theorem word_one : Ideal.ofBits .f32 0x3F800000#32 = 1 := by
  simp [Ideal.ofBits, Ideal.ieee, -EReal.coe_mul]; norm_num

/-- The same with the sign bit set: the number −1. -/
theorem word_neg_one : Ideal.ofBits .f32 0xBF800000#32 = -1 := by
  simp [Ideal.ofBits, Ideal.ieee, -EReal.coe_mul]; norm_num

/-! ## The sign by two comparisons -/

/-- Where `|w| > 0` (that is, `max w (−w) > 0`) the value is −1 if `w < 0` and +1 otherwise; where it is not — which
    on the extended reals happens only at `w = 0` — the value is `w` itself, that is 0. This is the sign of `w`:
    −1 on the negatives and at −∞, 0 at 0, +1 on the positives and at +∞. -/
theorem sign_by_compares (w : EReal) :
    Scalar.select (Ideal.cmp .ogt (max w (-w)) 0) (Scalar.select (Ideal.cmp .olt w 0) (-1) 1) w = Ideal.sign w := by
  induction w using EReal.rec with
  | bot =>
    have h1 : Ideal.cmp .ogt (max (⊥ : EReal) (-⊥)) 0 = 1#1 := by simp [Ideal.cmp]
    have h2 : Ideal.cmp .olt (⊥ : EReal) 0 = 1#1 := by simp [Ideal.cmp]
    rw [h1, select_one, h2, select_one, Ideal.sign_bot]
  | top =>
    have h1 : Ideal.cmp .ogt (max (⊤ : EReal) (-⊤)) 0 = 1#1 := by simp [Ideal.cmp]
    have h2 : Ideal.cmp .olt (⊤ : EReal) 0 = 0#1 := by simp [Ideal.cmp]
    rw [h1, select_one, h2, select_zero, Ideal.sign_top]
  | coe r =>
    rw [Ideal.sign_coe]
    rcases lt_trichotomy r 0 with hr | hr | hr
    · have h1 : Ideal.cmp .ogt (max (r : EReal) (-(r : EReal))) 0 = 1#1 := by
        have : (0 : EReal) < -(r : EReal) := by rw [← EReal.coe_neg]; exact_mod_cast neg_pos.mpr hr
        simp [Ideal.cmp, this]
      have h2 : Ideal.cmp .olt (r : EReal) 0 = 1#1 := by
        have : (r : EReal) < 0 := by exact_mod_cast hr
        simp [Ideal.cmp, this]
      rw [h1, select_one, h2, select_one, sign_neg hr]; simp
    · subst hr
      have h1 : Ideal.cmp .ogt (max ((0 : ℝ) : EReal) (-((0 : ℝ) : EReal))) 0 = 0#1 := by simp [Ideal.cmp]
      rw [h1, select_zero]; simp
    · have h1 : Ideal.cmp .ogt (max (r : EReal) (-(r : EReal))) 0 = 1#1 := by
        have : (0 : EReal) < (r : EReal) := by exact_mod_cast hr
        simp [Ideal.cmp, this]
      have h2 : Ideal.cmp .olt (r : EReal) 0 = 0#1 := by
        have : ¬ (r : EReal) < 0 := by exact_mod_cast not_lt.mpr hr.le
        simp [Ideal.cmp, this]
      rw [h1, select_one, h2, select_zero, sign_pos hr]; simp

/-! ## The layer -/

/-- One entry of the layer: row `xrow` of the inputs against row `wrow` of the weights, each weight replaced by its
    sign. -/
def signedDot {K : Nat} (xrow wrow : Fin K → EReal) : EReal := ∑ k : Fin K, xrow k * Ideal.sign (wrow k)

/-- The layer on a table of M rows: entry (r, o) pairs row r of `x` with row o of `w`. -/
def rowsBySigns {M N K : Nat} (x : (⟨2, ![M, K]⟩ : Shape).Idx → EReal) (w : (⟨2, ![N, K]⟩ : Shape).Idx → EReal) :
    (⟨2, ![M, N]⟩ : Shape).Idx → EReal :=
  fun j => signedDot (fun k => x (ix2 (j 0) k)) (fun k => w (ix2 (j 1) k))

/-- The layer on a batch of B sequences of S rows: entry (b, s, o) pairs row (b, s) of `x` with row o of `w`. -/
def batchBySigns {B S N K : Nat} (x : (⟨3, ![B, S, K]⟩ : Shape).Idx → EReal) (w : (⟨2, ![N, K]⟩ : Shape).Idx → EReal) :
    (⟨3, ![B, S, N]⟩ : Shape).Idx → EReal :=
  fun i => signedDot (fun k => x (ix3 (i 0) (i 1) k)) (fun k => w (ix2 (i 2) k))

end Cert.BinaryLinear

end
-- ==== Proof.StoredBlock.lean ====
/-
  What the kernel body stores, read at one entry.

  At a grid point the body holds a block of 2048 rows of the inputs (2048 × 768) and the whole weight table
  (768 × 768). It replaces every weight by its sign — spelt with two comparisons —, narrows both operands to the
  16-bit format (no change of value over the extended reals) and multiplies the row block by the TRANSPOSE of the
  sign table into a zero accumulator: both operands are contracted along their second axis. So the entry at row p and
  feature q of what it stores is the sum over k of x(p,k) · sign(w(q,k)).
-/
import proofs.«144993_j81106162417900_1_alg».proof.Proof.Gen.KernelIdeal.Skeleton
import proofs.«144993_j81106162417900_1_alg».proof.Proof.LibSignLayer
import Idealize.ShloMosaic.PureOps.Ideal.Laws
import Idealize.ShloMosaic.Lib.ValueIdx
import Idealize.ShloMosaic.Lib.Pipeline.Value

noncomputable section

open scoped BigOperators

namespace Cert.BinaryLinear.Body

open Idealize.ShloMosaic Idealize.ShloMosaic.ValueIdx Cert.KernelIdeal Cert.KernelIdeal.Gen Cert.BinaryLinear

/-! ## The product's operand indices -/

/-- The left operand's row is the result's row. -/
theorem left_row (j : S2048x768.Idx) (c : dot_S2048x768_S768x768_S2048x768_1_1_0_0_n_n.contr.Idx) :
    (dot_S2048x768_S768x768_S2048x768_1_1_0_0_n_n.lhsIdx j c 0).val = (j 0).val := by
  unfold DotDims.lhsIdx
  rw [dif_neg (show ¬(0 : Fin S2048x768.rank) ∈ dot_S2048x768_S768x768_S2048x768_1_1_0_0_n_n.lhsBatch by decide),
    dif_pos (show (0 : Fin S2048x768.rank) ∈ dot_S2048x768_S768x768_S2048x768_1_1_0_0_n_n.lhsNonContracting by decide)]
  rfl

/-- The left operand's column is the summation index. -/
theorem left_col (j : S2048x768.Idx) (c : dot_S2048x768_S768x768_S2048x768_1_1_0_0_n_n.contr.Idx) :
    (dot_S2048x768_S768x768_S2048x768_1_1_0_0_n_n.lhsIdx j c 1).val = (c ⟨0, by decide⟩).val :=
  dot_S2048x768_S768x768_S2048x768_1_1_0_0_n_n.lhsIdx_val_of_single rfl j c

/-- The right operand's ROW is the result's column: the right operand enters transposed. -/
theorem right_row (j : S2048x768.Idx) (c : dot_S2048x768_S768x768_S2048x768_1_1_0_0_n_n.contr.Idx) :
    (dot_S2048x768_S768x768_S2048x768_1_1_0_0_n_n.rhsIdx j c 0).val = (j 1).val := by
  unfold DotDims.rhsIdx
  rw [dif_neg (show ¬(0 : Fin S768x768.rank) ∈ dot_S2048x768_S768x768_S2048x768_1_1_0_0_n_n.rhsBatch by decide),
    dif_pos (show (0 : Fin S768x768.rank) ∈ dot_S2048x768_S768x768_S2048x768_1_1_0_0_n_n.rhsNonContracting by decide)]
  rfl

/-- The right operand's column is the summation index. -/
theorem right_col (j : S2048x768.Idx) (c : dot_S2048x768_S768x768_S2048x768_1_1_0_0_n_n.contr.Idx) :
    (dot_S2048x768_S768x768_S2048x768_1_1_0_0_n_n.rhsIdx j c 1).val = (c ⟨0, by decide⟩).val :=
  dot_S2048x768_S768x768_S2048x768_1_1_0_0_n_n.rhsIdx_val_of_single rfl j c

/-! ## The product of a row block with a transposed table -/

/-- Into a zero accumulator, entry (p, q) of the product is the sum over k of l(p,k) · r(q,k). -/
theorem rows_by_rows (l : FVec Ideal S2048x768 .bf16) (r : FVec Ideal S768x768 .bf16) (p : Fin 2048) (q : Fin 768) :
    matmul dot_S2048x768_S768x768_S2048x768_1_1_0_0_n_n none l r (constant (F := Ideal) S2048x768 .f32 0x00000000#32) (ix2 p q)
      = ∑ k : Fin 768, l (ix2 p k) * r (ix2 q k) := by
  refine (Ideal.matmul_constant_zero_apply dot_S2048x768_S768x768_S2048x768_1_1_0_0_n_n none l r (ix2 p q)).trans ?_
  rw [← Equiv.sum_comp (contrEquiv1 dot_S2048x768_S768x768_S2048x768_1_1_0_0_n_n 768 rfl rfl).symm]
  refine Finset.sum_congr rfl fun k _ => ?_
  have hk := contrEquiv1_symm_val dot_S2048x768_S768x768_S2048x768_1_1_0_0_n_n 768 rfl rfl k
  have el : dot_S2048x768_S768x768_S2048x768_1_1_0_0_n_n.lhsIdx (ix2 p q)
      ((contrEquiv1 dot_S2048x768_S768x768_S2048x768_1_1_0_0_n_n 768 rfl rfl).symm k) = ix2 p k :=
    funext fun a => Fin.ext (by
      match a with
      | ⟨0, _⟩ => exact left_row _ _
      | ⟨1, _⟩ => exact (left_col _ _).trans hk)
  have er : dot_S2048x768_S768x768_S2048x768_1_1_0_0_n_n.rhsIdx (ix2 p q)
      ((contrEquiv1 dot_S2048x768_S768x768_S2048x768_1_1_0_0_n_n 768 rfl rfl).symm k) = ix2 q k :=
    funext fun a => Fin.ext (by
      match a with
      | ⟨0, _⟩ => exact right_row _ _
      | ⟨1, _⟩ => exact (right_col _ _).trans hk)
  rw [el, er]

/-! ## The two operands -/

/-- The row block passes through a cast to its own shape and the narrowing: it is read unchanged. -/
theorem rows_operand (x : Vec Ideal S2048x768 .f32) (y : S2048x768.Idx) :
    (truncf .bf16 (shapeCast S2048x768 x shapeCasts_S2048x768_S2048x768) bitsLt_bf16_f32 : FVec Ideal S2048x768 .bf16) y = x y :=
  congrFun (shapeCast_self x shapeCasts_S2048x768_S2048x768) y

/-- The weight block after the two comparisons and the narrowing is the table of signs. -/
theorem signs_operand (w : Vec Ideal S768x768 .f32) (y : S768x768.Idx) :
    (truncf .bf16
      (select (cmpf .ogt (absf w) (broadcast S768x768 (Scalar.ofBits (F := Ideal) .f32 0x00000000#32)))
        (select (cmpf .olt w (constant (F := Ideal) S768x768 .f32 0x00000000#32))
          (constant (F := Ideal) S768x768 .f32 0xBF800000#32) (constant (F := Ideal) S768x768 .f32 0x3F800000#32)) w)
      bitsLt_bf16_f32 : FVec Ideal S768x768 .bf16) y = Ideal.sign (w y) := by
  show Scalar.select (Ideal.cmp .ogt (max (w y) (-(w y))) (Ideal.ofBits .f32 0x00000000#32))
      (Scalar.select (Ideal.cmp .olt (w y) (Ideal.ofBits .f32 0x00000000#32))
        (Ideal.ofBits .f32 0xBF800000#32) (Ideal.ofBits .f32 0x3F800000#32)) (w y) = _
  rw [word_zero, word_one, word_neg_one]
  exact sign_by_compares (w y)

/-! ## The stored block at an entry -/

/-- Entry (p, q) of the block the body stores: row p of the input block against row q of the weights, by signs. -/
theorem stored_entry (w : Vec Ideal S768x768 .f32) (x : Vec Ideal S2048x768 .f32) (p : Fin 2048) (q : Fin 768) :
    k0_pay1 (F := Ideal) w x (ix2 p q) = signedDot (fun k => x (ix2 p k)) (fun k => w (ix2 q k)) := by
  unfold k0_pay1
  refine (rows_by_rows _ _ p q).trans ?_
  unfold signedDot
  refine Finset.sum_congr rfl fun k _ => ?_
  exact congrArg₂ (· * ·) (rows_operand x (ix2 p k)) (signs_operand w (ix2 q k))

end Cert.BinaryLinear.Body

end
-- ==== Proof.RowBlocks.lean ====
/-
  From the blocks to the whole table of rows.

  The grid has 16 points. Point t works on rows 2048·t … 2048·t + 2047 of the 32768 × 768 table of input rows, always
  on the whole 768 × 768 weight table, and writes back rows 2048·t … 2048·t + 2047 of the 32768 × 768 result. The body
  pairs row p of its input block with row q of the weights, so what point t writes back is exactly rows
  2048·t … of the layer computed on the WHOLE table: the layer treats every row independently. The 16 blocks tile
  the result (row r lies in block r / 2048), so after the run the result table is the layer of the input table.
-/
import proofs.«144993_j81106162417900_1_alg».proof.Proof.Gen.KernelIdeal.Frame
import proofs.«144993_j81106162417900_1_alg».proof.Proof.StoredBlock
import Idealize.ShloMosaic.Lib.Pipeline.Value

set_option maxRecDepth 16384

noncomputable section

open scoped BigOperators

namespace Cert.BinaryLinear.Rows

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.BinaryLinear

variable (m : (ℓ : Loc nD τ sig) → Buf (Elt Ideal) ℓ) (ρ : Dev nD → PrngReg)

theorem origin : (![0, 0] : Fin 2 → Nat) = fun _ => 0 := funext fun a => by fin_cases a <;> rfl

/-- Which block each window is on at point t: the input rows and the result move together, one block of rows per
    point; the weight table stays on its only block; no window moves along the feature axis. -/
theorem block_of_point : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, q) of what the body stores from the blocks at point t is entry (2048·t + p, q) of the layer on the whole
    tables: the input block's row p is row 2048·t + p of the table, the weight block is the table. -/
theorem block_entry (X : S32768x768.Idx → Elt Ideal .f32) (W : S768x768.Idx → Elt Ideal .f32) (t : Fin cfg0.N)
    (p : Fin 2048) (q : Fin 768) :
    k0_pay1 (F := Ideal) (((cfg0.win 1).blk t).view.read (Elt Ideal) W) (((cfg0.win 0).blk t).view.read (Elt Ideal) X) (ix2 p q)
      = rowsBySigns X W (((cfg0.win 2).blk t).view.emb (ix2 p q)) := by
  refine (Body.stored_entry _ _ p q).trans ?_
  obtain ⟨e00, e01, e10, e11, e20, e21⟩ := block_of_point t
  unfold rowsBySigns
  refine congrArg₂ signedDot (funext fun k => ?_) (funext fun k => ?_)
  · show X (((cfg0.win 0).blk t).view.emb (ix2 p k)) = X (ix2 ((((cfg0.win 2).blk t).view.emb (ix2 p q)) 0) k)
    refine congrArg X (funext fun a => Fin.ext ?_)
    match a with
    | ⟨0, _⟩ => show win0_0.index t (0 : Fin 2) * 2048 + 1 * p.val = win0_2.index t (0 : Fin 2) * 2048 + 1 * p.val; omega
    | ⟨1, _⟩ => show win0_0.index t (1 : Fin 2) * 768 + 1 * k.val = k.val; omega
  · show W (((cfg0.win 1).blk t).view.emb (ix2 q k)) = W (ix2 ((((cfg0.win 2).blk t).view.emb (ix2 p q)) 1) k)
    refine congrArg W (funext fun a => Fin.ext ?_)
    match a with
    | ⟨0, _⟩ => show win0_1.index t (0 : Fin 2) * 768 + 1 * q.val = win0_2.index t (1 : Fin 2) * 768 + 1 * q.val; omega
    | ⟨1, _⟩ => show win0_1.index t (1 : Fin 2) * 768 + 1 * k.val = k.val; omega

/-- What point t writes back is block t of the layer of the tables as the region finds them. -/
theorem written_back (c : Dev nD) (t : Fin cfg0.N) :
    (dats m 0 c).flushed 2 t
      = ((cfg0.win 2).blk t).view.read (Elt Ideal) (rowsBySigns (V m c main_v0) (V m c main_arg1)) := by
  show (cfg0.win 2).cut (grid0.coords t) ((dats m 0 c).after 2 t) = _
  rw [after0_2]
  unfold out0_2
  rw [View.canon_unit_zero origin]
  simp only [View.ld_unit_zero (S := S768x768) origin, View.ld_unit_zero (S := S2048x768) origin]
  funext j
  obtain ⟨p, q, rfl⟩ : ∃ (p : Fin 2048) (q : Fin 768), j = ix2 p q := ⟨j 0, j 1, eq_ix2 j⟩
  exact block_entry (V m c main_v0) (V m c main_arg1) t p q

/-- A row of the result lies in point t's block exactly when it is one of rows 2048·t … 2048·t + 2047. -/
theorem in_block (t : Fin cfg0.N) (i : S32768x768.Idx) :
    i ∈ ((cfg0.win 2).blk t).view.set ↔ ∀ a : Fin 2, win0_2.index t a * S2048x768.size a ≤ (i a).val
      ∧ (i a).val < win0_2.index t a * S2048x768.size a + S2048x768.size a := by
  show i ∈ ((View.whole main_v1).slice (win0_2.rect t)).set ↔ _
  rw [View.set_slice_whole, Rect.mem_set_unit]
  exact Iff.rfl

/-- Every entry of the result is written back by some point: row r by point r / 2048. -/
theorem tiled (i : S32768x768.Idx) :
    ∃ t : Fin cfg0.N, (cfg0.win 2).flush t = true ∧ i ∈ ((cfg0.win 2).blk t).view.set := by
  have hi0 : (i 0).val < 32768 := (i 0).isLt
  have hi1 : (i 1).val < 768 := (i 1).isLt
  have hN : grid0.N = 16 := N_0
  have ht : (i 0).val / 2048 < cfg0.N := by show (i 0).val / 2048 < grid0.N; omega
  obtain ⟨-, -, -, -, e20, e21⟩ := block_of_point ⟨(i 0).val / 2048, ht⟩
  refine ⟨⟨(i 0).val / 2048, ht⟩, flush0_2 _, ?_⟩
  rw [in_block]
  intro a
  match a with
  | ⟨0, _⟩ =>
    show win0_2.index ⟨(i 0).val / 2048, ht⟩ (0 : Fin 2) * 2048 ≤ (i 0).val
      ∧ (i 0).val < win0_2.index ⟨(i 0).val / 2048, ht⟩ (0 : Fin 2) * 2048 + 2048
    have e : win0_2.index ⟨(i 0).val / 2048, ht⟩ (0 : Fin 2) = (i 0).val / 2048 := e20
    omega
  | ⟨1, _⟩ =>
    show win0_2.index ⟨(i 0).val / 2048, ht⟩ (1 : Fin 2) * 768 ≤ (i 1).val
      ∧ (i 1).val < win0_2.index ⟨(i 0).val / 2048, ht⟩ (1 : Fin 2) * 768 + 768
    omega

/-- After the run the result table is the layer of the input table and the weight table as the region finds them. -/
theorem table_after (c : Dev nD) :
    (dats m 0 c).arrAt 2 cfg0.N = rowsBySigns (V m c main_v0) (V m c main_arg1) :=
  (dats m 0 c).arrAt_eq_of_cover 2 _ (fun t _ => written_back m c t) tiled

end Cert.BinaryLinear.Rows

end
-- ==== Proof.FlatBatch.lean ====
/-
  Flattening the batch.

  The 4 × 8192 × 768 input is read as a table of 4·8192 = 32768 rows (row b·8192 + s is sequence b, position s), the
  layer is applied to the table, and the 32768 × 768 result is read back as 4 × 8192 × 768 the same way. Since the
  layer works on each row by itself, this is the layer applied to the batch directly: entry (b, s, o) pairs row (b, s)
  of the input with row o of the weights.
-/
import proofs.«144993_j81106162417900_1_alg».proof.Proof.LibSignLayer
import Idealize.ShloMosaic.Lib.Pipeline.Value

noncomputable section

open scoped BigOperators

namespace Cert.BinaryLinear

open Idealize.ShloMosaic Idealize.ShloMosaic.ValueIdx

/-- Row-major position of (b, s, k) in 4 × 8192 × 768 and of (b·8192 + s, k) in 32768 × 768: the same number. -/
theorem flat_position (b : Fin 4) (s : Fin 8192) (k : Fin 768) (hr : b.val * 8192 + s.val < 32768) :
    ((⟨3, ![4, 8192, 768]⟩ : Shape).rowMajor (ix3 b s k)).val
      = ((⟨2, ![32768, 768]⟩ : Shape).rowMajor (ix2 ⟨b.val * 8192 + s.val, hr⟩ k)).val := by
  rw [Shape.rowMajor_val_three, Shape.rowMajor_val_two]
  rfl

/-- The layer between the two reshapes is the layer on the batch. -/
theorem layer_between_reshapes (x : (⟨3, ![4, 8192, 768]⟩ : Shape).Idx → EReal) (w : (⟨2, ![768, 768]⟩ : Shape).Idx → EReal)
    (hin : (⟨3, ![4, 8192, 768]⟩ : Shape).ShapeCasts ⟨2, ![32768, 768]⟩)
    (hout : (⟨2, ![32768, 768]⟩ : Shape).ShapeCasts ⟨3, ![4, 8192, 768]⟩) :
    shapeCast (⟨3, ![4, 8192, 768]⟩ : Shape) (rowsBySigns (shapeCast (⟨2, ![32768, 768]⟩ : Shape) x hin) w) hout
      = batchBySigns x w := by
  funext i
  obtain ⟨b, s, o, rfl⟩ : ∃ (b : Fin 4) (s : Fin 8192) (o : Fin 768), i = ix3 b s o := ⟨i 0, i 1, i 2, eq_ix3 i⟩
  have hb : b.val < 4 := b.isLt
  have hs : s.val < 8192 := s.isLt
  have hr : b.val * 8192 + s.val < 32768 := by omega
  refine (shapeCast_apply _ hout (ix3 b s o) (ix2 ⟨b.val * 8192 + s.val, hr⟩ o) (flat_position b s o hr).symm).trans ?_
  unfold rowsBySigns batchBySigns
  refine congrArg₂ signedDot (funext fun k => ?_) rfl
  exact shapeCast_apply x hin (ix2 ⟨b.val * 8192 + s.val, hr⟩ k) (ix3 b s k) (flat_position b s k hr)

end Cert.BinaryLinear

end
-- ==== Proof.KernelProgram.lean ====
/-
  The kernel's whole program, read as one function of its two inputs.

  Before the call the host reads the 4 × 8192 × 768 input as a table of 32768 rows; the call leaves the layer of that
  table and the weight table in the 32768 × 768 result; after the call the host reads the result back as
  4 × 8192 × 768. Together: the program's result is the layer applied to the batch, and the two inputs are left as
  they were.
-/
import proofs.«144993_j81106162417900_1_alg».proof.Proof.RowBlocks
import proofs.«144993_j81106162417900_1_alg».proof.Proof.FlatBatch
import Idealize.ShloMosaic.Lib.StableHlo.Run

set_option maxRecDepth 16384

noncomputable section

namespace Cert.BinaryLinear.Program

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.BinaryLinear

variable (m : (ℓ : Loc nD τ sig) → Buf (Elt Ideal) ℓ) (ρ : Dev nD → PrngReg)

/-- When the call starts, the table of rows is the input read row-major as 32768 × 768. -/
theorem rows_on_entry (c : Dev nD) :
    (V m c main_v0 : S32768x768.Idx → Elt Ideal .f32)
      = shapeCast S32768x768 (m ((c : Thread nD τ).loc main_arg0)) shapeCasts_S4x8192x768_S32768x768 := by
  show StableHlo.after hostOps0 (fun b => m (c, b)) (Proc.devRef .tc main_v0) = _
  after_results
  rfl

/-- After the call, the program's result is the call's result table read row-major as 4 × 8192 × 768. -/
theorem result_after (c : Dev nD) :
    (Pipeline.afterTail₀ cfgs (dats m) 0 (V0 m) [hostOps1] c main_v2 : S4x8192x768.Idx → Elt Ideal .f32)
      = shapeCast S4x8192x768 ((dats m 0 c).arrAt 2 cfg0.N) shapeCasts_S32768x768_S4x8192x768 := by
  unfold Pipeline.afterTail₀
  show StableHlo.after hostOps1 _ (Proc.devRef .tc main_v2) = _
  after_results
  rw [Pipeline.withArrays_arr spec0 launch0.win.arr_inj c _ _ 2]
  rfl

/-- The program's result is the layer on the batch. -/
theorem result_is_layer (c : Dev nD) :
    (Pipeline.afterTail₀ cfgs (dats m) 0 (V0 m) [hostOps1] c main_v2 : S4x8192x768.Idx → Elt Ideal .f32)
      = batchBySigns (m ((c : Thread nD τ).loc main_arg0)) (m ((c : Thread nD τ).loc main_arg1)) := by
  rw [result_after, Rows.table_after, rows_on_entry, V_main_arg1]
  exact layer_between_reshapes _ _ _ _

/-- Every run of the program ends with the layer of its inputs in the result and the inputs unchanged. -/
theorem run : θ_run defs (onTc (τ := τ) (main (F := Ideal))) ⟨m, fun _ => 0, ρ⟩ fun r => ∀ c : Dev nD,
      r.2.mem ((c.tc : Thread nD τ).loc main_v2)
        = batchBySigns (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v2 (Pipeline.mem_restRefs_of main_v2 (by decide) (by decide))).trans (result_is_layer m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.BinaryLinear.Program

end
-- ==== Proof.ReferenceLayer.lean ====
/-
  The reference, read as the same function.

  The reference takes the sign of every weight and contracts the last axis of the 4 × 8192 × 768 input with the last
  axis of the 768 × 768 sign table: entry (b, s, o) is the sum over k of x(b,s,k) · sign(w(o,k)) — the layer on the
  batch, term by term and in the same order of summation.
-/
import proofs.«144993_j81106162417900_1_alg».proof.Proof.Gen.ReferenceIdeal.Read
import proofs.«144993_j81106162417900_1_alg».proof.Proof.LibSignLayer

noncomputable section

open scoped BigOperators

namespace Cert.BinaryLinear.Reference

open Idealize.ShloMosaic Idealize.ShloMosaic.ValueIdx Cert.ReferenceIdeal Cert.ReferenceIdeal.Read Cert.BinaryLinear

/-- The reference's result is the layer on the batch. -/
theorem result_is_layer (x : (⟨S4x8192x768, .f32⟩ : BufTy).Contents (Elt Ideal)) (w : (⟨S768x768, .f32⟩ : BufTy).Contents (Elt Ideal)) :
    val_main_v1 (F := Ideal) x w = batchBySigns x w := by
  funext i
  obtain ⟨b, s, o, rfl⟩ : ∃ (b : Fin 4) (s : Fin 8192) (o : Fin 768), i = ix3 b s o := ⟨i 0, i 1, i 2, eq_ix3 i⟩
  have hl : ∀ k : Fin 768, lidx_main_v1 (ix3 b s o) k = ix3 b s k := fun k => funext fun a => by
    match a with
    | ⟨0, _⟩ => rfl
    | ⟨1, _⟩ => rfl
    | ⟨2, _⟩ => rfl
  have hr : ∀ k : Fin 768, ridx_main_v1 (ix3 b s o) k = ix2 o k := fun k => funext fun a => by
    match a with
    | ⟨0, _⟩ => rfl
    | ⟨1, _⟩ => rfl
  refine (val_main_v1_apply x w (ix3 b s o)).trans ?_
  unfold batchBySigns signedDot
  refine Finset.sum_congr rfl fun k _ => ?_
  rw [hl k, hr k]
  rfl

end Cert.BinaryLinear.Reference

end
-- ==== Proof.lean ====
/-
  A linear layer with binarised weights, as a tiled kernel and as a reference.

  Both programs take a batch `x` (4 × 8192 × 768) and a weight table `w` (768 × 768) and return, at (b, s, o), the sum
  over the 768 input features k of `x(b,s,k) · sign(w(o,k))`, where the sign is −1, 0 or +1.

  The kernel reads the batch as 32768 rows, works on 2048 rows per grid point against the whole weight table, and
  spells the sign with two comparisons (where |w| > 0: −1 below zero, +1 otherwise; elsewhere w itself, which is 0);
  it narrows both operands to a 16-bit format, which changes nothing over the extended reals, and multiplies the rows
  by the transposed sign table into a zero accumulator. The reference takes the sign directly and contracts the last
  axes. Over the extended reals the two are the same sum, term by term and in the same order, so nothing about the
  inputs being finite is used: the comparison form of the sign agrees with the sign function at −∞ and +∞ as well.

  The modules: LibSignLayer (the sign by comparisons, the layer as a function), StoredBlock (the block the body stores,
  at an entry), RowBlocks (the 16 blocks make the whole table), FlatBatch (reading the batch as rows and back),
  KernelProgram (the kernel's whole run), ReferenceLayer (the reference is the same function). The one rewrite made
  when the kernel was idealised — "1.0 carrying w's sign bit" read as −1 below zero and +1 otherwise — is the rule's
  own statement at this shape.
-/
import proofs.«144993_j81106162417900_1_alg».proof.Defs
import proofs.«144993_j81106162417900_1_alg».proof.Proof.Gen.Kernel
import proofs.«144993_j81106162417900_1_alg».proof.Proof.Gen.Kernel.Skeleton
import proofs.«144993_j81106162417900_1_alg».proof.Proof.Gen.Kernel.Launch
import proofs.«144993_j81106162417900_1_alg».proof.Proof.Gen.Kernel.Points
import proofs.«144993_j81106162417900_1_alg».proof.Proof.Gen.Kernel.Frame
import proofs.«144993_j81106162417900_1_alg».proof.Proof.Gen.KernelIdeal
import proofs.«144993_j81106162417900_1_alg».proof.Proof.Gen.KernelIdeal.Skeleton
import proofs.«144993_j81106162417900_1_alg».proof.Proof.Gen.KernelIdeal.Launch
import proofs.«144993_j81106162417900_1_alg».proof.Proof.Gen.KernelIdeal.Points
import proofs.«144993_j81106162417900_1_alg».proof.Proof.Gen.KernelIdeal.Frame
import proofs.«144993_j81106162417900_1_alg».proof.Proof.Gen.ReferenceIdeal
import proofs.«144993_j81106162417900_1_alg».proof.Proof.Gen.Pre_finite_inputs
import proofs.«144993_j81106162417900_1_alg».proof.Proof.Gen.ReferenceIdeal.Run
import proofs.«144993_j81106162417900_1_alg».proof.Proof.Gen.ReferenceIdeal.Read
import proofs.«144993_j81106162417900_1_alg».proof.Proof.KernelProgram
import proofs.«144993_j81106162417900_1_alg».proof.Proof.ReferenceLayer
import Idealize.ShloMosaic.Adequacy
import Idealize.ShloMosaic.Init

noncomputable section

namespace Cert.Proof

open Idealize.ShloMosaic Idealize.ShloMosaic.TcCoe Idealize.SL.Sem

/-- The kernel as printed runs and leaves its inputs alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- "1.0 carrying w's sign bit" is −1 where w < 0 and +1 elsewhere: the rule's statement at the weight table's shape. -/
theorem preserves : Cert.preserves_Kernel_KernelIdeal :=
  IdealRules.sign_bit.statement Cert.KernelIdeal.S768x768 .f32

/-- From inputs that agree, both programs end with the layer of the inputs in their result. -/
theorem algebraic : Cert.algebraic_KernelIdeal_ReferenceIdeal := by
  intro m ρ m' ρ' _ hagree
  refine ⟨fun c => Cert.BinaryLinear.batchBySigns
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.BinaryLinear.Program.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.BinaryLinear.Reference.result_is_layer, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
